-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S512x64 .f32) (main_arg5 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S512x64 .f32) (main_arg5 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S1x64 : Shape := ⟨2, ![1, 64]⟩
abbrev S10000x64 : Shape := ⟨2, ![10000, 64]⟩
abbrev S2000x512 : Shape := ⟨2, ![2000, 512]⟩
abbrev S200x10000 : Shape := ⟨2, ![200, 10000]⟩
abbrev S200x64 : Shape := ⟨2, ![200, 64]⟩
abbrev S200x512 : Shape := ⟨2, ![200, 512]⟩
abbrev S400x10000 : Shape := ⟨2, ![400, 10000]⟩
abbrev S400x64 : Shape := ⟨2, ![400, 64]⟩

abbrev nBuf : Space → Nat
  | .hbm => 11
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S1x512, .f32⟩
  | .hbm, ⟨7, _⟩ => ⟨S1x64, .f32⟩
  | .hbm, ⟨8, _⟩ => ⟨S10000x512, .bf16⟩
  | .hbm, ⟨9, _⟩ => ⟨S10000x64, .bf16⟩
  | .hbm, ⟨10, _⟩ => ⟨S10000x64, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S1x512, .f32⟩
  | .local _ .vmem, ⟨9, _⟩ => ⟨S512x64, .f32⟩
  | .local _ .vmem, ⟨10, _⟩ => ⟨S200x64, .bf16⟩
  | .local _ .vmem, ⟨11, _⟩ => ⟨S200x64, .bf16⟩
  | .local _ .vmem, ⟨12, _⟩ => ⟨S400x10000, .f32⟩
  | .local _ .vmem, ⟨13, _⟩ => ⟨S400x10000, .f32⟩
  | .local _ .vmem, ⟨14, _⟩ => ⟨S10000x64, .bf16⟩
  | .local _ .vmem, ⟨15, _⟩ => ⟨S1x64, .f32⟩
  | .local _ .vmem, ⟨16, _⟩ => ⟨S400x64, .f32⟩
  | .local _ .vmem, ⟨17, _⟩ => ⟨S400x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S512_S1x512 : S512.ShapeCasts S1x512
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S2000x512_S2000x512_0_0 : (Rect.unit (s := S2000x512) ![0, 0] S2000x512.size inb_S2000x512_S2000x512_0_0).PackedRows (EltTy.packing .bf16)
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x64_S512x64_0_0 : ∀ a, (![0, 0] : Fin 2 → Nat) a + S512x64.size a ≤ S512x64.size a
  h_S512x64 : 0 < S512x64.numel
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S2000x512_S512x512_S2000x512_1_0_0_1_n_n_wf : DotDims.WF S2000x512 S512x512 S2000x512 [1] [0] [0] [1] [] []
  dot_S200x10000_S10000x512_S200x512_1_0_0_1_n_n_wf : DotDims.WF S200x10000 S10000x512 S200x512 [1] [0] [0] [1] [] []
  dot_S200x512_S512x64_S200x64_1_0_0_1_n_n_wf : DotDims.WF S200x512 S512x64 S200x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S512x64.size a
  hwx1_3 : ∀ i : grid1.Coords, EltTy.bits .f32 = 32 ∨ (Rect.block (s := S512x64) S512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .bf16 = 32 ∨ (Rect.block (s := S10000x64) S200x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x64_S200x64_1_0_0_1_n_n : DotDims S200x512 S512x64 S200x64 where
  lhsContracting := [1]
  rhsContracting := [0]
  lhsNonContracting := [0]
  rhsNonContracting := [1]
  lhsBatch := []
  rhsBatch := []
  wf := dot_S200x512_S512x64_S200x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S200x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S_ : Shape := ⟨0, ![]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x64_S10000x64_1_0_0_1_n_n_wf : DotDims.WF S10000x512 S512x64 S10000x64 [1] [0] [0] [1] [] []
  dot_S10000x10000_S10000x64_S10000x64_1_0_0_1_n_n_wf : DotDims.WF S10000x10000 S10000x64 S10000x64 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The kernel program's run with its result named: every weakly fair execution terminates, nothing faulting, with the
  result array at what the third launch's write-backs leave of it and the six argument arrays as launched.
-/
import proofs.«111619_g14448269984218_cont_week2b_799_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The last boundary's contents at the result array are what the third launch's write-backs leave. -/
theorem W4_result (c : Dev nD) : W4 m ρ c (Proc.devRef .tc main_v0) = (dat2 (V3 m ρ) c).arrAt 3 cfg2.N :=
  W4_arr m ρ c 3

end Cert.KernelIdeal.Run

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.GcnSpec.lean ====
/-
  The mathematics of a two-layer dense graph convolution over the extended reals:

      out = adj · (relu(adj · (x · W1) + b1) · W2) + b2 .

  Matrices are functions on rank-two index sets. `mm A B` is the matrix product, entry (a, b) the sum over the
  contracted coordinate c of A(a, c) · B(c, b). `hidden` is one layer's second stage: the product adj · s plus the bias
  row, clamped below at zero, times the next weight matrix. `affine` is the last stage: the product adj · s plus the
  bias row. Biases are held as one-row matrices; `rowOf` makes that row from a vector.
-/
import Idealize.ShloMosaic.PureOps.Ideal
import Idealize.ShloMosaic.Lib.ValueIdx

noncomputable section

open scoped BigOperators

namespace Gcn

open Idealize.ShloMosaic Idealize.ShloMosaic.ValueIdx

/-- The matrix product: entry (a, b) is the sum over c of A(a, c) · B(c, b). -/
def mm {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- At an entry given by its coordinates. -/
theorem mm_ix2 {m k n : Nat} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A vector as a one-row matrix. -/
def rowOf {n : Nat} (b : (⟨1, ![n]⟩ : Shape).Idx → EReal) : (⟨2, ![1, n]⟩ : Shape).Idx → EReal :=
  fun j => b (ix1 (j 1))

/-- The zero the clamp compares against: the value of the all-zero f32 word. -/
abbrev zeroWord : EReal := FloatOps.ofBits (F := Ideal) .f32 0x00000000#32

/-- The pre-activation adj · s + b, clamped below at zero (the larger of the entry and zero in the order of the
    extended reals, which is how the float maximum reads at exact values). -/
def act {m k n : Nat} (adj : (⟨2, ![m, k]⟩ : Shape).Idx → EReal) (s : (⟨2, ![k, n]⟩ : Shape).Idx → EReal)
    (b : (⟨2, ![1, n]⟩ : Shape).Idx → EReal) : (⟨2, ![m, n]⟩ : Shape).Idx → EReal :=
  fun i => max (mm adj s i + b (ix2 0 (i 1))) zeroWord

/-- One hidden layer followed by the next layer's weights: relu(adj · s + b) · W. -/
def hidden {m k n r : Nat} (adj : (⟨2, ![m, k]⟩ : Shape).Idx → EReal) (s : (⟨2, ![k, n]⟩ : Shape).Idx → EReal)
    (b : (⟨2, ![1, n]⟩ : Shape).Idx → EReal) (W : (⟨2, ![n, r]⟩ : Shape).Idx → EReal) :
    (⟨2, ![m, r]⟩ : Shape).Idx → EReal :=
  mm (act adj s b) W

/-- The output layer: adj · s + b. -/
def affine {m k n : Nat} (adj : (⟨2, ![m, k]⟩ : Shape).Idx → EReal) (s : (⟨2, ![k, n]⟩ : Shape).Idx → EReal)
    (b : (⟨2, ![1, n]⟩ : Shape).Idx → EReal) : (⟨2, ![m, n]⟩ : Shape).Idx → EReal :=
  fun i => mm adj s i + b (ix2 0 (i 1))

/-- The whole network. -/
def gcn (x : (⟨2, ![10000, 512]⟩ : Shape).Idx → EReal) (adj : (⟨2, ![10000, 10000]⟩ : Shape).Idx → EReal)
    (W1 : (⟨2, ![512, 512]⟩ : Shape).Idx → EReal) (b1 : (⟨2, ![1, 512]⟩ : Shape).Idx → EReal)
    (W2 : (⟨2, ![512, 64]⟩ : Shape).Idx → EReal) (b2 : (⟨2, ![1, 64]⟩ : Shape).Idx → EReal) :
    (⟨2, ![10000, 64]⟩ : Shape).Idx → EReal :=
  affine adj (hidden adj (mm x W1) b1 W2) b2

end Gcn

end
-- ==== Proof.Stage1.lean ====
/-
  The first stage, x · W1: five grid points, point t producing rows 2000·t … 2000·t + 1999 of the product from
  the same rows of x and the whole of W1.
-/
import proofs.«111619_g14448269984218_cont_week2b_799_2_alg».proof.Proof.Gen.KernelIdeal.Frame
import proofs.«111619_g14448269984218_cont_week2b_799_2_alg».proof.Proof.LibPlainMatmul
import proofs.«111619_g14448269984218_cont_week2b_799_2_alg».proof.Proof.GcnSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Stage1

open Cert.KernelIdeal Cert.KernelIdeal.Gen

/-- The zero offsets of a whole-block access, as a constant function. -/
theorem hz : (![0, 0] : Fin 2 → Nat) = fun _ => 0 := funext fun a => by fin_cases a <;> rfl

/-- The body's stored value at (p, q): the (p, q) entry of the product of its two loaded blocks. -/
theorem pay_apply (x0 : Vec Ideal S2000x512 .f32) (x1 : Vec Ideal S512x512 .f32) (p : Fin 2000) (q : Fin 512) :
    k0_pay1 (F := Ideal) x0 x1 (ix2 p q) = ∑ c : Fin 512, x0 (ix2 p c) * x1 (ix2 c q) :=
  matmul_plain_zero_apply (φ₁ := .bf16) (φ₂ := .bf16) none x0 x1 p q

/-- The stored value at an entry of the block is the product's entry at the array index the block entry lands on,
    once the row of the first block and the column of the second are the array's. -/
theorem block_entry (x0 : Vec Ideal S2000x512 .f32) (x1 : Vec Ideal S512x512 .f32)
    (A : S10000x512.Idx → EReal) (B : S512x512.Idx → EReal) (y : S2000x512.Idx) (i : S10000x512.Idx)
    (h0 : ∀ k : Fin 512, x0 (ix2 (y 0) k) = A (ix2 (i 0) k))
    (h1 : ∀ k : Fin 512, x1 (ix2 k (y 1)) = B (ix2 k (i 1))) :
    k0_pay1 (F := Ideal) x0 x1 y = Gcn.mm A B i := by
  obtain ⟨p, q, rfl⟩ : ∃ (p : Fin 2000) (q : Fin 512), y = ix2 p q := ⟨y 0, y 1, eq_ix2 y⟩
  rw [pay_apply]
  exact Finset.sum_congr rfl fun k _ => congrArg₂ (· * ·) (h0 k) (h1 k)

variable (V : (c : Dev nD) → (b : Ref sig .tc) → Buf (Elt Ideal) ((c : Thread nD τ).loc b))

/-- The block index maps over the grid: the row-slab windows (the first input and the output) sit at block (t, 0) at
    point t, every other window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W1 of the two arrays as the launch found them. -/
theorem flushed_eq (c : Dev nD) (t : Fin cfg0.N) :
    (dat0 V c).flushed 2 t = ((cfg0.win 2).blk t).view.read (Elt Ideal)
      (Gcn.mm (V c main_arg0 : S10000x512.Idx → EReal) (V c main_arg2 : S512x512.Idx → EReal)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  funext j
  show k0_pay1 (F := Ideal) (iblk0 V c 0 t) (iblk0 V c 1 t) j = Gcn.mm _ _ (((cfg0.win 2).blk t).view.emb j)
  obtain ⟨e00, e01, e10, e11, e20, e21⟩ := idx_facts t
  refine block_entry _ _ _ _ j _ (fun k => ?_) (fun k => ?_)
  · show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg2 (((cfg0.win 1).blk t).view.emb (ix2 k (j 1))) = V c main_arg2 _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- An index of the product array is in point t's block iff each coordinate is in the block's range on its axis. -/
theorem mem_blk (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_call0_v2).slice (win0_2.rect t)).set ↔ _
  rw [View.set_slice_whole, Rect.mem_set_unit]
  exact Iff.rfl

/-- Row r of the product is written by the point r / 2000. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := N_0
  have ht : (i 0).val / 2000 < cfg0.N := by rw [hN]; omega
  refine ⟨⟨(i 0).val / 2000, ht⟩, flush0_2 _, ?_⟩
  rw [mem_blk]
  obtain ⟨-, -, -, -, e20, e21⟩ := idx_facts ⟨(i 0).val / 2000, ht⟩
  have e20' : win0_2.index ⟨(i 0).val / 2000, ht⟩ (0 : Fin 2) = (i 0).val / 2000 := e20
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    omega
  | ⟨1, _⟩ =>
    show win0_2.index ⟨(i 0).val / 2000, ht⟩ (1 : Fin 2) * 512 ≤ (i 1).val ∧ (i 1).val < win0_2.index ⟨(i 0).val / 2000, ht⟩ (1 : Fin 2) * 512 + 512
    omega

/-- After the first launch the product array holds x · W1 of the two arrays as the launch found them. -/
theorem final (c : Dev nD) :
    (dat0 V c).arrAt 2 cfg0.N = Gcn.mm (V c main_arg0 : S10000x512.Idx → EReal) (V c main_arg2 : S512x512.Idx → EReal) :=
  (dat0 V c).arrAt_eq_of_cover 2 _ (fun t _ => flushed_eq V c t) cover

end Cert.KernelIdeal.Stage1

end
-- ==== Proof.Stage2.lean ====
/-
  The second stage, relu(adj · s1 + b1) · W2: fifty grid points, point t producing rows 200·t … 200·t + 199 from the
  same rows of adj and the whole of s1, of the bias row and of W2.
-/
import proofs.«111619_g14448269984218_cont_week2b_799_2_alg».proof.Proof.Gen.KernelIdeal.Frame
import proofs.«111619_g14448269984218_cont_week2b_799_2_alg».proof.Proof.LibPlainMatmul
import proofs.«111619_g14448269984218_cont_week2b_799_2_alg».proof.Proof.GcnSpec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Stage2

open Cert.KernelIdeal Cert.KernelIdeal.Gen

/-- The zero offsets of a whole-block access, as a constant function. -/
theorem hz : (![0, 0] : Fin 2 → Nat) = fun _ => 0 := funext fun a => by fin_cases a <;> rfl

/-- The body's stored value at (p, q): the pre-activation row p of the first product plus the bias row, clamped at
    zero, contracted with column q of the second weight block. -/
theorem pay_apply (x0 : Vec Ideal S200x10000 .f32) (x1 : Vec Ideal S10000x512 .bf16) (x2 : Vec Ideal S1x512 .f32)
    (x3 : Vec Ideal S512x64 .f32) (p : Fin 200) (q : Fin 64) :
    k1_pay1 (F := Ideal) x0 x1 x2 x3 (ix2 p q)
      = ∑ c : Fin 512, max ((∑ j : Fin 10000, x0 (ix2 p j) * x1 (ix2 j c)) + x2 (ix2 (0 : Fin 1) c)) Gcn.zeroWord
          * x3 (ix2 c q) := by
  unfold k1_pay1
  refine (matmul_plain_zero_apply (φ₁ := .bf16) (φ₂ := .bf16) none _ _ p q).trans ?_
  refine Finset.sum_congr rfl fun c _ => congrArg₂ (· * ·) ?_ rfl
  refine (truncf_apply (φ := .f32) (ψ := .bf16) _ _ (ix2 p c)).trans ?_
  refine (maximumf_apply (φ := .f32) _ _ (ix2 p c)).trans ?_
  refine congrArg₂ max ?_ rfl
  refine (addf_apply (φ := .f32) _ _ (ix2 p c)).trans ?_
  refine congrArg₂ (· + ·) ?_ ?_
  · refine (matmul_plain_zero_apply (φ₁ := .bf16) (φ₂ := .bf16) none _ _ p c).trans ?_
    exact Finset.sum_congr rfl fun j _ => congrArg₂ (· * ·) rfl (congrFun (shapeCast_self x1 _) (ix2 j c))
  · refine (broadcastTo_1b_ab_apply _ _ p c).trans ?_
    exact congrFun (shapeCast_self x2 _) (ix2 (0 : Fin 1) c)

/-- The stored value at an entry of the block is the stage's entry at the array index the block entry lands on, once
    the row of the adjacency block and the column of the weight block are the arrays', and the two whole blocks are
    their arrays. -/
theorem block_entry (x0 : Vec Ideal S200x10000 .f32) (x1 : Vec Ideal S10000x512 .bf16) (x2 : Vec Ideal S1x512 .f32)
    (x3 : Vec Ideal S512x64 .f32)
    (A : S10000x10000.Idx → EReal) (S : S10000x512.Idx → EReal) (b : S1x512.Idx → EReal) (W : S512x64.Idx → EReal)
    (y : S200x64.Idx) (i : S10000x64.Idx)
    (h0 : ∀ j : Fin 10000, x0 (ix2 (y 0) j) = A (ix2 (i 0) j))
    (h1 : x1 = S) (h2 : x2 = b)
    (h3 : ∀ k : Fin 512, x3 (ix2 k (y 1)) = W (ix2 k (i 1))) :
    k1_pay1 (F := Ideal) x0 x1 x2 x3 y = Gcn.hidden A S b W i := by
  subst h1 h2
  obtain ⟨p, q, rfl⟩ : ∃ (p : Fin 200) (q : Fin 64), y = ix2 p q := ⟨y 0, y 1, eq_ix2 y⟩
  rw [pay_apply]
  show _ = ∑ c : Fin 512, max ((∑ j : Fin 10000, A (ix2 (i 0) j) * x1 (ix2 j c)) + x2 (ix2 (0 : Fin 1) c)) Gcn.zeroWord
      * W (ix2 c (i 1))
  exact Finset.sum_congr rfl fun c _ => congrArg₂ (· * ·)
    (congrArg₂ max (congrArg₂ (· + ·) (Finset.sum_congr rfl fun j _ => congrArg₂ (· * ·) (h0 j) rfl) rfl) rfl) (h3 c)

variable (V : (c : Dev nD) → (b : Ref sig .tc) → Buf (Elt Ideal) ((c : Thread nD τ).loc b))

/-- The block index maps over the grid: the row-slab windows (the first input and the output) sit at block (t, 0) at
    point t, every other window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of relu(adj · s1 + b1) · W2 of the four arrays as the launch found them. -/
theorem flushed_eq (c : Dev nD) (t : Fin cfg1.N) :
    (dat1 V c).flushed 4 t = ((cfg1.win 4).blk t).view.read (Elt Ideal)
      (Gcn.hidden (V c main_arg1 : S10000x10000.Idx → EReal) (V c main_call0_v2 : S10000x512.Idx → EReal)
        (V c main_call0_v0 : S1x512.Idx → EReal) (V c main_arg4 : S512x64.Idx → EReal)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x512) hz,
    View.ld_unit_zero (S := S1x512) hz, View.ld_unit_zero (S := S512x64) hz]
  funext j
  show k1_pay1 (F := Ideal) (iblk1 V c 0 t) (iblk1 V c 1 t) (iblk1 V c 2 t) (iblk1 V c 3 t) j
    = Gcn.hidden _ _ _ _ (((cfg1.win 4).blk t).view.emb j)
  obtain ⟨e00, e01, e10, e11, e20, e21, e30, e31, e40, e41⟩ := idx_facts t
  refine block_entry _ _ _ _ _ _ _ _ j _ (fun k => ?_) (funext fun y => ?_) (funext fun y => ?_) (fun k => ?_)
  · show V c main_arg1 (((cfg1.win 0).blk t).view.emb (ix2 (j 0) k)) = V c main_arg1 _
    refine congrArg (V c main_arg1) (funext fun a => Fin.ext ?_)
    match a with
    | ⟨0, _⟩ => show win1_0.index t (0 : Fin 2) * 200 + 1 * (j 0).val = win1_4.index t (0 : Fin 2) * 200 + 1 * (j 0).val; omega
    | ⟨1, _⟩ => show win1_0.index t (1 : Fin 2) * 10000 + 1 * k.val = k.val; omega
  · show V c main_call0_v2 (((cfg1.win 1).blk t).view.emb y) = V c main_call0_v2 y
    refine congrArg (V c main_call0_v2) (funext fun a => Fin.ext ?_)
    match a with
    | ⟨0, _⟩ => show win1_1.index t (0 : Fin 2) * 10000 + 1 * (y 0).val = (y 0).val; omega
    | ⟨1, _⟩ => show win1_1.index t (1 : Fin 2) * 512 + 1 * (y 1).val = (y 1).val; omega
  · show V c main_call0_v0 (((cfg1.win 2).blk t).view.emb y) = V c main_call0_v0 y
    refine congrArg (V c main_call0_v0) (funext fun a => Fin.ext ?_)
    match a with
    | ⟨0, _⟩ => show win1_2.index t (0 : Fin 2) * 1 + 1 * (y 0).val = (y 0).val; omega
    | ⟨1, _⟩ => show win1_2.index t (1 : Fin 2) * 512 + 1 * (y 1).val = (y 1).val; omega
  · show V c main_arg4 (((cfg1.win 3).blk t).view.emb (ix2 k (j 1))) = V c main_arg4 _
    refine congrArg (V c main_arg4) (funext fun a => Fin.ext ?_)
    match a with
    | ⟨0, _⟩ => show win1_3.index t (0 : Fin 2) * 512 + 1 * k.val = k.val; omega
    | ⟨1, _⟩ => show win1_3.index t (1 : Fin 2) * 64 + 1 * (j 1).val = win1_4.index t (1 : Fin 2) * 64 + 1 * (j 1).val; omega

/-- An index of the stage's array is in point t's block iff each coordinate is in the block's range on its axis. -/
theorem mem_blk (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_call0_v3).slice (win1_4.rect t)).set ↔ _
  rw [View.set_slice_whole, Rect.mem_set_unit]
  exact Iff.rfl

/-- Row r is written by the point r / 200. -/
theorem cover (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 50 := N_1
  have ht : (i 0).val / 200 < cfg1.N := by rw [hN]; omega
  refine ⟨⟨(i 0).val / 200, ht⟩, flush1_4 _, ?_⟩
  rw [mem_blk]
  obtain ⟨-, -, -, -, -, -, -, -, e40, e41⟩ := idx_facts ⟨(i 0).val / 200, ht⟩
  have e40' : win1_4.index ⟨(i 0).val / 200, ht⟩ (0 : Fin 2) = (i 0).val / 200 := e40
  intro a
  match a with
  | ⟨0, _⟩ =>
    show win1_4.index ⟨(i 0).val / 200, ht⟩ (0 : Fin 2) * 200 ≤ (i 0).val ∧ (i 0).val < win1_4.index ⟨(i 0).val / 200, ht⟩ (0 : Fin 2) * 200 + 200
    omega
  | ⟨1, _⟩ =>
    show win1_4.index ⟨(i 0).val / 200, ht⟩ (1 : Fin 2) * 64 ≤ (i 1).val ∧ (i 1).val < win1_4.index ⟨(i 0).val / 200, ht⟩ (1 : Fin 2) * 64 + 64
    omega

/-- After the second launch its output array holds relu(adj · s1 + b1) · W2 of the arrays as the launch found them. -/
theorem final (c : Dev nD) :
    (dat1 V c).arrAt 4 cfg1.N = Gcn.hidden (V c main_arg1 : S10000x10000.Idx → EReal)
      (V c main_call0_v2 : S10000x512.Idx → EReal) (V c main_call0_v0 : S1x512.Idx → EReal)
      (V c main_arg4 : S512x64.Idx → EReal) :=
  (dat1 V c).arrAt_eq_of_cover 4 _ (fun t _ => flushed_eq V c t) cover

end Cert.KernelIdeal.Stage2

end
-- ==== Proof.Stage3.lean ====
/-
  The third stage, adj · s2 + b2: twenty-five grid points, point t producing rows 400·t … 400·t + 399 from the same
  rows of adj and the whole of s2 and of the bias row.
-/
import proofs.«111619_g14448269984218_cont_week2b_799_2_alg».proof.Proof.Gen.KernelIdeal.Frame
import proofs.«111619_g14448269984218_cont_week2b_799_2_alg».proof.Proof.LibPlainMatmul
import proofs.«111619_g14448269984218_cont_week2b_799_2_alg».proof.Proof.GcnSpec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Stage3

open Cert.KernelIdeal Cert.KernelIdeal.Gen

/-- The zero offsets of a whole-block access, as a constant function. -/
theorem hz : (![0, 0] : Fin 2 → Nat) = fun _ => 0 := funext fun a => by fin_cases a <;> rfl

/-- The body's stored value at (p, q): row p of the adjacency block contracted with column q of s2, plus the bias
    row's entry q. -/
theorem pay_apply (x0 : Vec Ideal S400x10000 .f32) (x1 : Vec Ideal S10000x64 .bf16) (x2 : Vec Ideal S1x64 .f32)
    (p : Fin 400) (q : Fin 64) :
    k2_pay1 (F := Ideal) x0 x1 x2 (ix2 p q)
      = (∑ j : Fin 10000, x0 (ix2 p j) * x1 (ix2 j q)) + x2 (ix2 (0 : Fin 1) q) := by
  unfold k2_pay1
  refine (addf_apply (φ := .f32) _ _ (ix2 p q)).trans ?_
  refine congrArg₂ (· + ·) ?_ ?_
  · refine (matmul_plain_zero_apply (φ₁ := .bf16) (φ₂ := .bf16) none _ _ p q).trans ?_
    exact Finset.sum_congr rfl fun j _ => congrArg₂ (· * ·) rfl (congrFun (shapeCast_self x1 _) (ix2 j q))
  · refine (broadcastTo_1b_ab_apply _ _ p q).trans ?_
    exact congrFun (shapeCast_self x2 _) (ix2 (0 : Fin 1) q)

/-- The stored value at an entry of the block is the stage's entry at the array index the block entry lands on, once
    the row of the adjacency block, the column of s2 and the bias entry are the arrays'. -/
theorem block_entry (x0 : Vec Ideal S400x10000 .f32) (x1 : Vec Ideal S10000x64 .bf16) (x2 : Vec Ideal S1x64 .f32)
    (A : S10000x10000.Idx → EReal) (S : S10000x64.Idx → EReal) (b : S1x64.Idx → EReal)
    (y : S400x64.Idx) (i : S10000x64.Idx)
    (h0 : ∀ j : Fin 10000, x0 (ix2 (y 0) j) = A (ix2 (i 0) j))
    (h1 : ∀ j : Fin 10000, x1 (ix2 j (y 1)) = S (ix2 j (i 1)))
    (h2 : x2 (ix2 (0 : Fin 1) (y 1)) = b (ix2 (0 : Fin 1) (i 1))) :
    k2_pay1 (F := Ideal) x0 x1 x2 y = Gcn.affine A S b i := by
  obtain ⟨p, q, rfl⟩ : ∃ (p : Fin 400) (q : Fin 64), y = ix2 p q := ⟨y 0, y 1, eq_ix2 y⟩
  rw [pay_apply]
  show _ = (∑ j : Fin 10000, A (ix2 (i 0) j) * S (ix2 j (i 1))) + b (ix2 (0 : Fin 1) (i 1))
  exact congrArg₂ (· + ·) (Finset.sum_congr rfl fun j _ => congrArg₂ (· * ·) (h0 j) (h1 j)) h2

variable (V : (c : Dev nD) → (b : Ref sig .tc) → Buf (Elt Ideal) ((c : Thread nD τ).loc b))

/-- The block index maps over the grid: the row-slab windows (the first input and the output) sit at block (t, 0) at
    point t, every other window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of adj · s2 + b2 of the three arrays as the launch found them. -/
theorem flushed_eq (c : Dev nD) (t : Fin cfg2.N) :
    (dat2 V c).flushed 3 t = ((cfg2.win 3).blk t).view.read (Elt Ideal)
      (Gcn.affine (V c main_arg1 : S10000x10000.Idx → EReal) (V c main_call0_v3 : S10000x64.Idx → EReal)
        (V c main_call0_v1 : S1x64.Idx → EReal)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz,
    View.ld_unit_zero (S := S1x64) hz]
  funext j
  show k2_pay1 (F := Ideal) (iblk2 V c 0 t) (iblk2 V c 1 t) (iblk2 V c 2 t) j
    = Gcn.affine _ _ _ (((cfg2.win 3).blk t).view.emb j)
  obtain ⟨e00, e01, e10, e11, e20, e21, e30, e31⟩ := idx_facts t
  refine block_entry _ _ _ _ _ _ j _ (fun k => ?_) (fun k => ?_) ?_
  · show V c main_arg1 (((cfg2.win 0).blk t).view.emb (ix2 (j 0) k)) = V c main_arg1 _
    refine congrArg (V c main_arg1) (funext fun a => Fin.ext ?_)
    match a with
    | ⟨0, _⟩ => show win2_0.index t (0 : Fin 2) * 400 + 1 * (j 0).val = win2_3.index t (0 : Fin 2) * 400 + 1 * (j 0).val; omega
    | ⟨1, _⟩ => show win2_0.index t (1 : Fin 2) * 10000 + 1 * k.val = k.val; omega
  · show V c main_call0_v3 (((cfg2.win 1).blk t).view.emb (ix2 k (j 1))) = V c main_call0_v3 _
    refine congrArg (V c main_call0_v3) (funext fun a => Fin.ext ?_)
    match a with
    | ⟨0, _⟩ => show win2_1.index t (0 : Fin 2) * 10000 + 1 * k.val = k.val; omega
    | ⟨1, _⟩ => show win2_1.index t (1 : Fin 2) * 64 + 1 * (j 1).val = win2_3.index t (1 : Fin 2) * 64 + 1 * (j 1).val; omega
  · show V c main_call0_v1 (((cfg2.win 2).blk t).view.emb (ix2 (0 : Fin 1) (j 1))) = V c main_call0_v1 _
    refine congrArg (V c main_call0_v1) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

/-- An index of the result array is in point t's block iff each coordinate is in the block's range on its axis. -/
theorem mem_blk (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v0).slice (win2_3.rect t)).set ↔ _
  rw [View.set_slice_whole, Rect.mem_set_unit]
  exact Iff.rfl

/-- Row r is written by the point r / 400. -/
theorem cover (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have hN : cfg2.N = 25 := N_2
  have ht : (i 0).val / 400 < cfg2.N := by rw [hN]; omega
  refine ⟨⟨(i 0).val / 400, ht⟩, flush2_3 _, ?_⟩
  rw [mem_blk]
  obtain ⟨-, -, -, -, -, -, e30, e31⟩ := idx_facts ⟨(i 0).val / 400, ht⟩
  have e30' : win2_3.index ⟨(i 0).val / 400, ht⟩ (0 : Fin 2) = (i 0).val / 400 := e30
  intro a
  match a with
  | ⟨0, _⟩ =>
    show win2_3.index ⟨(i 0).val / 400, ht⟩ (0 : Fin 2) * 400 ≤ (i 0).val ∧ (i 0).val < win2_3.index ⟨(i 0).val / 400, ht⟩ (0 : Fin 2) * 400 + 400
    omega
  | ⟨1, _⟩ =>
    show win2_3.index ⟨(i 0).val / 400, ht⟩ (1 : Fin 2) * 64 ≤ (i 1).val ∧ (i 1).val < win2_3.index ⟨(i 0).val / 400, ht⟩ (1 : Fin 2) * 64 + 64
    omega

/-- After the third launch the result array holds adj · s2 + b2 of the arrays as the launch found them. -/
theorem final (c : Dev nD) :
    (dat2 V c).arrAt 3 cfg2.N = Gcn.affine (V c main_arg1 : S10000x10000.Idx → EReal)
      (V c main_call0_v3 : S10000x64.Idx → EReal) (V c main_call0_v1 : S1x64.Idx → EReal) :=
  (dat2 V c).arrAt_eq_of_cover 3 _ (fun t _ => flushed_eq V c t) cover

end Cert.KernelIdeal.Stage3

end
-- ==== Proof.KernelValue.lean ====
/-
  The kernel program's result as the network of GcnSpec. The three launches run one after another over one memory: the
  first leaves x · W1 in its output array, the second reads that array whole together with the first bias reshaped to
  a row and leaves relu(adj · s1 + b1) · W2, the third reads that and the second bias row and leaves adj · s2 + b2 in
  the result. Every array a launch reads is either an argument, which nothing writes, a reshaped bias, which the two
  host reshapes before the first launch write once, or an earlier launch's output, which no later launch writes.
-/
import proofs.«111619_g14448269984218_cont_week2b_799_2_alg».proof.Proof.KernelRun
import proofs.«111619_g14448269984218_cont_week2b_799_2_alg».proof.Proof.Stage1
import proofs.«111619_g14448269984218_cont_week2b_799_2_alg».proof.Proof.Stage2
import proofs.«111619_g14448269984218_cont_week2b_799_2_alg».proof.Proof.Stage3
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Whole

open Cert.KernelIdeal Cert.KernelIdeal.Gen

/-- A vector reshaped to one row is that vector as a one-row matrix. -/
theorem row_cast {n : Nat} (b : (⟨1, ![n]⟩ : Shape).Idx → EReal) (h : (⟨1, ![n]⟩ : Shape).ShapeCasts ⟨2, ![1, n]⟩) :
    shapeCast ⟨2, ![1, n]⟩ b h = Gcn.rowOf b := by
  funext j
  obtain ⟨u, k, rfl⟩ : ∃ (u : Fin 1) (k : Fin n), j = ix2 u k := ⟨j 0, j 1, eq_ix2 j⟩
  exact shapeCast_a_1a_apply b h u k

variable (m : (ℓ : Loc nD τ sig) → Buf (Elt Ideal) ℓ) (ρ : Dev nD → PrngReg)

/-! ## What the first launch finds: the two reshapes have run -/

theorem at1_x (c : Dev nD) : V1 m ρ c main_arg0 = m ((c : Thread nD τ).loc main_arg0) := by
  show StableHlo.after hostOps0 (W0 m ρ c) (Proc.devRef .tc main_arg0) = _
  dsimp only [hostOps0]
  after_results <;> rfl
theorem at1_adj (c : Dev nD) : V1 m ρ c main_arg1 = m ((c : Thread nD τ).loc main_arg1) := by
  show StableHlo.after hostOps0 (W0 m ρ c) (Proc.devRef .tc main_arg1) = _
  dsimp only [hostOps0]
  after_results <;> rfl
theorem at1_W1 (c : Dev nD) : V1 m ρ c main_arg2 = m ((c : Thread nD τ).loc main_arg2) := by
  show StableHlo.after hostOps0 (W0 m ρ c) (Proc.devRef .tc main_arg2) = _
  dsimp only [hostOps0]
  after_results <;> rfl
theorem at1_W2 (c : Dev nD) : V1 m ρ c main_arg4 = m ((c : Thread nD τ).loc main_arg4) := by
  show StableHlo.after hostOps0 (W0 m ρ c) (Proc.devRef .tc main_arg4) = _
  dsimp only [hostOps0]
  after_results <;> rfl
theorem at1_b1 (c : Dev nD) : V1 m ρ c main_call0_v0 = Gcn.rowOf (m ((c : Thread nD τ).loc main_arg3)) := by
  refine Eq.trans ?_ (row_cast (m ((c : Thread nD τ).loc main_arg3)) shapeCasts_S512_S1x512)
  show StableHlo.after hostOps0 (W0 m ρ c) (Proc.devRef .tc main_call0_v0) = _
  dsimp only [hostOps0]
  after_results <;> rfl
theorem at1_b2 (c : Dev nD) : V1 m ρ c main_call0_v1 = Gcn.rowOf (m ((c : Thread nD τ).loc main_arg5)) := by
  refine Eq.trans ?_ (row_cast (m ((c : Thread nD τ).loc main_arg5)) shapeCasts_S64_S1x64)
  show StableHlo.after hostOps0 (W0 m ρ c) (Proc.devRef .tc main_call0_v1) = _
  dsimp only [hostOps0]
  after_results <;> rfl

/-! ## What the second launch finds: the first has written only its output -/

theorem at2_adj (c : Dev nD) : V2 m ρ c main_arg1 = m ((c : Thread nD τ).loc main_arg1) :=
  (W2_of_ne m ρ c main_arg1 (by decide)).trans (at1_adj m ρ c)
theorem at2_W2 (c : Dev nD) : V2 m ρ c main_arg4 = m ((c : Thread nD τ).loc main_arg4) :=
  (W2_of_ne m ρ c main_arg4 (by decide)).trans (at1_W2 m ρ c)
theorem at2_b1 (c : Dev nD) : V2 m ρ c main_call0_v0 = Gcn.rowOf (m ((c : Thread nD τ).loc main_arg3)) :=
  (W2_of_ne m ρ c main_call0_v0 (by decide)).trans (at1_b1 m ρ c)
theorem at2_b2 (c : Dev nD) : V2 m ρ c main_call0_v1 = Gcn.rowOf (m ((c : Thread nD τ).loc main_arg5)) :=
  (W2_of_ne m ρ c main_call0_v1 (by decide)).trans (at1_b2 m ρ c)
/-- s1 = x · W1. -/
theorem at2_s1 (c : Dev nD) : V2 m ρ c main_call0_v2
    = Gcn.mm (m ((c : Thread nD τ).loc main_arg0)) (m ((c : Thread nD τ).loc main_arg2)) := by
  refine (W2_arr m ρ c 2).trans ((Stage1.final (V1 m ρ) c).trans ?_)
  rw [at1_x m ρ c, at1_W1 m ρ c]

/-! ## What the third launch finds: the second has written only its output -/

theorem at3_adj (c : Dev nD) : V3 m ρ c main_arg1 = m ((c : Thread nD τ).loc main_arg1) :=
  ((W3_arr m ρ c 0).trans (((dat1 (V2 m ρ) c).arrAt_in 0 rfl _).trans (A_eq1 (V2 m ρ) c 0))).trans (at2_adj m ρ c)
theorem at3_b2 (c : Dev nD) : V3 m ρ c main_call0_v1 = Gcn.rowOf (m ((c : Thread nD τ).loc main_arg5)) :=
  (W3_of_ne m ρ c main_call0_v1 (by decide)).trans (at2_b2 m ρ c)
/-- s2 = relu(adj · s1 + b1) · W2. -/
theorem at3_s2 (c : Dev nD) : V3 m ρ c main_call0_v3
    = Gcn.hidden (m ((c : Thread nD τ).loc main_arg1))
        (Gcn.mm (m ((c : Thread nD τ).loc main_arg0)) (m ((c : Thread nD τ).loc main_arg2)))
        (Gcn.rowOf (m ((c : Thread nD τ).loc main_arg3))) (m ((c : Thread nD τ).loc main_arg4)) := by
  refine (W3_arr m ρ c 4).trans ((Stage2.final (V2 m ρ) c).trans ?_)
  rw [at2_adj m ρ c, at2_s1 m ρ c, at2_b1 m ρ c, at2_W2 m ρ c]

/-! ## The result -/

/-- The result array after the run is the network of the six argument arrays. -/
theorem result (c : Dev nD) : W4 m ρ c (Proc.devRef .tc main_v0)
    = Gcn.gcn (m ((c : Thread nD τ).loc main_arg0)) (m ((c : Thread nD τ).loc main_arg1))
        (m ((c : Thread nD τ).loc main_arg2)) (Gcn.rowOf (m ((c : Thread nD τ).loc main_arg3)))
        (m ((c : Thread nD τ).loc main_arg4)) (Gcn.rowOf (m ((c : Thread nD τ).loc main_arg5))) := by
  refine (Run.W4_result m ρ c).trans ((Stage3.final (V3 m ρ) c).trans ?_)
  rw [at3_adj m ρ c, at3_s2 m ρ c, at3_b2 m ρ c]
  rfl

/-- The run, read: the result at the network of the arguments, the arguments unchanged. -/
theorem run : θ_run defs (onTc (τ := τ) (main (F := Ideal))) ⟨m, fun _ => 0, ρ⟩ (fun r => ∀ c : Dev nD,
      r.2.mem ((c.tc : Thread nD τ).loc main_v0)
        = Gcn.gcn (m ((c.tc : Thread nD τ).loc main_arg0)) (m ((c.tc : Thread nD τ).loc main_arg1))
            (m ((c.tc : Thread nD τ).loc main_arg2)) (Gcn.rowOf (m ((c.tc : Thread nD τ).loc main_arg3)))
            (m ((c.tc : Thread nD τ).loc main_arg4)) (Gcn.rowOf (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Run.run m ρ)

end Cert.KernelIdeal.Whole

end
-- ==== Proof.RefValue.lean ====
/-
  The reference program's result as the network of GcnSpec: each host matrix product is the matrix product, the two
  broadcasts of a bias vector read it as a one-row matrix added to every row, and the maximum with the broadcast zero is
  the clamp.
-/
import proofs.«111619_g14448269984218_cont_week2b_799_2_alg».proof.Proof.Gen.ReferenceIdeal.Read
import proofs.«111619_g14448269984218_cont_week2b_799_2_alg».proof.Proof.GcnSpec

noncomputable section

open Idealize.ShloMosaic Idealize.ShloMosaic.ValueIdx
open scoped BigOperators

namespace Cert.ReferenceIdeal.RefValue

open Cert.ReferenceIdeal Cert.ReferenceIdeal.Read

/-- A sum over the contracted coordinate whose left indices run along row i₀ and right indices down column i₁ is the
    matrix product's entry. -/
theorem sum_eq_mm {m k n : Nat} (A : (⟨2, ![m, k]⟩ : Shape).Idx → EReal) (B : (⟨2, ![k, n]⟩ : Shape).Idx → EReal)
    (i : (⟨2, ![m, n]⟩ : Shape).Idx) (l : Fin k → (⟨2, ![m, k]⟩ : Shape).Idx) (r : Fin k → (⟨2, ![k, n]⟩ : Shape).Idx)
    (hl : ∀ c, l c = ix2 (i 0) c) (hr : ∀ c, r c = ix2 c (i 1)) :
    ∑ c : Fin k, A (l c) * B (r c) = Gcn.mm A B i :=
  Finset.sum_congr rfl fun c _ => congrArg₂ (· * ·) (congrArg A (hl c)) (congrArg B (hr c))

variable (x : S10000x512.Idx → EReal) (adj : S10000x10000.Idx → EReal) (W1 : S512x512.Idx → EReal)
  (b1 : S512.Idx → EReal) (W2 : S512x64.Idx → EReal) (b2 : S64.Idx → EReal)

/-- x · W1. -/
theorem v0_eq : val_main_v0 (F := Ideal) x W1 = Gcn.mm x W1 := by
  funext i
  rw [val_main_v0_apply]
  exact sum_eq_mm x W1 i _ _
    (fun c => funext fun a => by match a with | ⟨0, _⟩ => rfl | ⟨1, _⟩ => rfl)
    (fun c => funext fun a => by match a with | ⟨0, _⟩ => rfl | ⟨1, _⟩ => rfl)

/-- adj · (x · W1). -/
theorem v1_eq : val_main_v1 (F := Ideal) x adj W1 = Gcn.mm adj (val_main_v0 (F := Ideal) x W1) := by
  funext i
  rw [val_main_v1_apply]
  exact sum_eq_mm adj _ i _ _
    (fun c => funext fun a => by match a with | ⟨0, _⟩ => rfl | ⟨1, _⟩ => rfl)
    (fun c => funext fun a => by match a with | ⟨0, _⟩ => rfl | ⟨1, _⟩ => rfl)

/-- The clamped pre-activation. -/
theorem v5_eq : val_main_v5 (F := Ideal) x adj W1 b1 = Gcn.act adj (val_main_v0 (F := Ideal) x W1) (Gcn.rowOf b1) := by
  funext i
  rw [val_main_v5_apply, val_main_v4_apply, val_main_v3_apply, val_main_v2_apply, val_main_call0_v0_apply, v1_eq]
  show max (Gcn.mm adj (val_main_v0 (F := Ideal) x W1) i + b1 (idx_main_v2 (idx_main_v3 i))) Gcn.zeroWord
    = max (Gcn.mm adj (val_main_v0 (F := Ideal) x W1) i + b1 (ix1 (i 1))) Gcn.zeroWord
  have e : idx_main_v2 (idx_main_v3 i) = ix1 (i 1) := funext fun a => by match a with | ⟨0, _⟩ => rfl
  rw [e]
  rfl

/-- relu(…) · W2. -/
theorem v6_eq : val_main_v6 (F := Ideal) x adj W1 b1 W2 = Gcn.mm (val_main_v5 (F := Ideal) x adj W1 b1) W2 := by
  funext i
  rw [val_main_v6_apply]
  exact sum_eq_mm _ W2 i _ _
    (fun c => funext fun a => by match a with | ⟨0, _⟩ => rfl | ⟨1, _⟩ => rfl)
    (fun c => funext fun a => by match a with | ⟨0, _⟩ => rfl | ⟨1, _⟩ => rfl)

/-- adj · s2. -/
theorem v7_eq : val_main_v7 (F := Ideal) x adj W1 b1 W2 = Gcn.mm adj (val_main_v6 (F := Ideal) x adj W1 b1 W2) := by
  funext i
  rw [val_main_v7_apply]
  exact sum_eq_mm adj _ i _ _
    (fun c => funext fun a => by match a with | ⟨0, _⟩ => rfl | ⟨1, _⟩ => rfl)
    (fun c => funext fun a => by match a with | ⟨0, _⟩ => rfl | ⟨1, _⟩ => rfl)

/-- The reference's result is the network. -/
theorem result_eq : val_main_v10 (F := Ideal) x adj W1 b1 W2 b2
    = Gcn.gcn x adj W1 (Gcn.rowOf b1) W2 (Gcn.rowOf b2) := by
  funext i
  rw [val_main_v10_apply, val_main_v9_apply, val_main_v8_apply, v7_eq, v6_eq, v5_eq, v0_eq]
  show Gcn.mm adj (Gcn.mm (Gcn.act adj (Gcn.mm x W1) (Gcn.rowOf b1)) W2) i + b2 (idx_main_v8 (idx_main_v9 i))
    = Gcn.mm adj (Gcn.mm (Gcn.act adj (Gcn.mm x W1) (Gcn.rowOf b1)) W2) i + b2 (ix1 (i 1))
  have e : idx_main_v8 (idx_main_v9 i) = ix1 (i 1) := funext fun a => by match a with | ⟨0, _⟩ => rfl
  rw [e]
  rfl

end Cert.ReferenceIdeal.RefValue

end
-- ==== Proof.lean ====
/-
  The certificate of a two-layer dense graph convolution,

      out = adj · (relu(adj · (x · W1) + b1) · W2) + b2 ,

  computed by three launches (x · W1 in five row slabs; relu(adj · s1 + b1) · W2 in fifty; adj · s2 + b2 in
  twenty-five) against the same formula written with four whole matrix products. At exact values a change of float
  format is the identity and a matrix product into a zero accumulator is the plain sum of products, so each launch
  leaves, row slab by row slab, the same entries the whole products have: both programs end with the one function
  `Gcn.gcn` of the six argument arrays (GcnSpec). No law of arithmetic beyond the definition of the matrix product is
  used, and the sums are taken in the same order on both sides, so finiteness of the inputs is never needed.

  The three frames are the generated ones (the reference's is its generated run with the result dropped); no float
  operation was rewritten on the way to exact values, so that claim is trivial; the value claim pairs the kernel's run
  (KernelValue) with the reference's run read as the same network (RefValue).
-/
import proofs.«111619_g14448269984218_cont_week2b_799_2_alg».proof.Defs
import proofs.«111619_g14448269984218_cont_week2b_799_2_alg».proof.Proof.Gen.Kernel
import proofs.«111619_g14448269984218_cont_week2b_799_2_alg».proof.Proof.Gen.Kernel.Skeleton
import proofs.«111619_g14448269984218_cont_week2b_799_2_alg».proof.Proof.Gen.Kernel.Launch
import proofs.«111619_g14448269984218_cont_week2b_799_2_alg».proof.Proof.Gen.Kernel.Points
import proofs.«111619_g14448269984218_cont_week2b_799_2_alg».proof.Proof.Gen.Kernel.Frame
import proofs.«111619_g14448269984218_cont_week2b_799_2_alg».proof.Proof.Gen.KernelIdeal
import proofs.«111619_g14448269984218_cont_week2b_799_2_alg».proof.Proof.Gen.KernelIdeal.Skeleton
import proofs.«111619_g14448269984218_cont_week2b_799_2_alg».proof.Proof.Gen.KernelIdeal.Launch
import proofs.«111619_g14448269984218_cont_week2b_799_2_alg».proof.Proof.Gen.KernelIdeal.Points
import proofs.«111619_g14448269984218_cont_week2b_799_2_alg».proof.Proof.Gen.KernelIdeal.Frame
import proofs.«111619_g14448269984218_cont_week2b_799_2_alg».proof.Proof.Gen.ReferenceIdeal
import proofs.«111619_g14448269984218_cont_week2b_799_2_alg».proof.Proof.Gen.Pre_finite_inputs
import proofs.«111619_g14448269984218_cont_week2b_799_2_alg».proof.Proof.Gen.ReferenceIdeal.Run
import proofs.«111619_g14448269984218_cont_week2b_799_2_alg».proof.Proof.Gen.ReferenceIdeal.Read
import proofs.«111619_g14448269984218_cont_week2b_799_2_alg».proof.Proof.KernelValue
import proofs.«111619_g14448269984218_cont_week2b_799_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, run from memories agreeing on the arguments, end with the network of the arguments in their
    result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v10_eq, Cert.ReferenceIdeal.RefValue.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
